-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S256x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x64 .f32) (main_arg7 : FVec F S64 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x10000 .f32) (main_arg1 : FVec F S10000x128 .f32) (main_arg2 : FVec F S128x256 .f32) (main_arg3 : FVec F S256 .f32) (main_arg4 : FVec F S256x256 .f32) (main_arg5 : FVec F S256 .f32) (main_arg6 : FVec F S256x64 .f32) (main_arg7 : FVec F S64 .f32) (main_arg8 : FVec F S256x64 .f32) (main_arg9 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x10000 : Shape := ⟨2, ![10000, 10000]⟩
abbrev S10000x128 : Shape := ⟨2, ![10000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x256 : Shape := ⟨2, ![1, 256]⟩
abbrev S10000x256 : Shape := ⟨2, ![10000, 256]⟩
abbrev S2000x128 : Shape := ⟨2, ![2000, 128]⟩
abbrev S2000x256 : Shape := ⟨2, ![2000, 256]⟩
abbrev S400x10000 : Shape := ⟨2, ![400, 10000]⟩
abbrev S400x256 : Shape := ⟨2, ![400, 256]⟩
abbrev S256x128 : Shape := ⟨2, ![256, 128]⟩
abbrev S128 : Shape := ⟨1, ![128]⟩
abbrev S1x128 : Shape := ⟨2, ![1, 128]⟩
abbrev S10000x64 : Shape := ⟨2, ![10000, 64]⟩

abbrev nBuf : Space → Nat
  | .hbm => 22
  | .vmem => 28
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S256x128, .f32⟩
  | .hbm, ⟨17, _⟩ => ⟨S128, .f32⟩
  | .hbm, ⟨18, _⟩ => ⟨S1x128, .f32⟩
  | .hbm, ⟨19, _⟩ => ⟨S10000x128, .f32⟩
  | .hbm, ⟨20, _⟩ => ⟨S10000x64, .f32⟩
  | .hbm, ⟨21, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S400x10000, .f32⟩
  | .local _ .vmem, ⟨7, _⟩ => ⟨S400x10000, .f32⟩
  | .local _ .vmem, ⟨8, _⟩ => ⟨S10000x256, .f32⟩
  | .local _ .vmem, ⟨9, _⟩ => ⟨S400x256, .f32⟩
  | .local _ .vmem, ⟨10, _⟩ => ⟨S400x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S400x10000, .f32⟩
  | .local _ .vmem, ⟨18, _⟩ => ⟨S400x10000, .f32⟩
  | .local _ .vmem, ⟨19, _⟩ => ⟨S10000x256, .f32⟩
  | .local _ .vmem, ⟨20, _⟩ => ⟨S400x256, .f32⟩
  | .local _ .vmem, ⟨21, _⟩ => ⟨S400x256, .f32⟩
  | .local _ .vmem, ⟨22, _⟩ => ⟨S2000x256, .f32⟩
  | .local _ .vmem, ⟨23, _⟩ => ⟨S2000x256, .f32⟩
  | .local _ .vmem, ⟨24, _⟩ => ⟨S256x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  concatenates_S256x64_S256x64_S256x128_d1 : Shape.Concatenates [S256x64, S256x64] S256x128 1
  concatenates_S64_S64_S128_d0 : Shape.Concatenates [S64, S64] S128 0
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S10000x128_S10000x64_0_0 : S10000x128.Slices ![0, 0] S10000x64
  slices_S10000x128_S10000x64_0_64 : S10000x128.Slices ![0, 64] S10000x64
  dot_S2000x128_S128x256_S2000x256_1_0_0_1_n_n_wf : DotDims.WF S2000x128 S128x256 S2000x256 [1] [0] [0] [1] [] []
  dot_S400x10000_S10000x256_S400x256_1_0_0_1_n_n_wf : DotDims.WF S400x10000 S10000x256 S400x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S10000x256.size a
  hwx2_3 : ∀ i : grid2.Coords, EltTy.bits .f32 = 32 ∨ (Rect.block (s := S10000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x256.size a ≤ S10000x256.size a
  hwx3_2 : ∀ i : grid3.Coords, EltTy.bits .f32 = 32 ∨ (Rect.block (s := S10000x256) S400x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S10000x128.size a
  hwx4_3 : ∀ i : grid4.Coords, EltTy.bits .f32 = 32 ∨ (Rect.block (s := S10000x128) S2000x128.size (cc4_transform_3 i) (hinb4_3 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S400x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v5) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S10000x256 : Shape := ⟨2, ![10000, 256]⟩
abbrev S1x256 : Shape := ⟨2, ![1, 256]⟩
abbrev S_ : Shape := ⟨0, ![]⟩
abbrev S10000x64 : Shape := ⟨2, ![10000, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S10000x256, .f32⟩
  | .hbm, ⟨11, _⟩ => ⟨S1x256, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S1x256, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x256_S256x64_S10000x64_1_0_0_1_n_n_wf : DotDims.WF S10000x256 S256x64 S10000x64 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.Spec.lean ====
/-
  The mathematics both programs compute, as whole-array functions over the extended reals.

  A graph-convolution encoder: with `A` the (dense) normalised adjacency, `X` the node features,
    P₁ = X·W₁ + b₁          H₁ = max(A·P₁, 0)
    P₂ = H₁·W₂ + b₂         H₂ = max(A·P₂, 0)
    μ  = H₂·Wμ + bμ         logσ² = H₂·Wσ + bσ
  Every product is the plain sum over the contracted axis; a bias is a one-row matrix added to every row.
  Nothing here mentions a program: the two sides are each shown to compute these functions.
-/
import Idealize.ShloMosaic.PureOps.Ideal
import Idealize.ShloMosaic.Lib.ValueIdx

noncomputable section

namespace Cert.Gcn

open Idealize.ShloMosaic Idealize.ShloMosaic.ValueIdx

/-- An `n × k` array of extended reals. -/
abbrev Mat (n k : Nat) : Type := (⟨2, ![n, k]⟩ : Shape).Idx → EReal
/-- A length-`n` vector of extended reals. -/
abbrev Row (n : Nat) : Type := (⟨1, ![n]⟩ : Shape).Idx → EReal

/-- The float word of zero, as the extended real both programs compare against. -/
abbrev zeroWord : EReal := Ideal.ofBits .f32 0x00000000#32

/-- A vector as a one-row matrix. -/
def rowMat {p : Nat} (b : Row p) : Mat 1 p := fun i => b (ix1 (i 1))

/-- `x·w + b`: entry `(r, s)` is `Σ_q x[r,q]·w[q,s] + b[0,s]`. -/
def affine {n k p : Nat} (x : Mat n k) (w : Mat k p) (b : Mat 1 p) : Mat n p :=
  fun i => (∑ q : Fin k, x (ix2 (i 0) q) * w (ix2 q (i 1))) + b (ix2 (0 : Fin 1) (i 1))

/-- `max(a·h, 0)`: entry `(r, s)` is `max(Σ_q a[r,q]·h[q,s], 0)`. -/
def aggregate {n k p : Nat} (a : Mat n k) (h : Mat k p) : Mat n p :=
  fun i => max (∑ q : Fin k, a (ix2 (i 0) q) * h (ix2 q (i 1))) zeroWord

/-- The second hidden state `H₂` of the encoder. -/
def hidden (A : Mat 10000 10000) (X : Mat 10000 128) (W1 : Mat 128 256) (b1 : Row 256) (W2 : Mat 256 256) (b2 : Row 256) :
    Mat 10000 256 :=
  aggregate A (affine (aggregate A (affine X W1 (rowMat b1))) W2 (rowMat b2))

/-- One linear head `H₂·W + b` of the encoder. -/
def head (A : Mat 10000 10000) (X : Mat 10000 128) (W1 : Mat 128 256) (b1 : Row 256) (W2 : Mat 256 256) (b2 : Row 256)
    (W : Mat 256 64) (b : Row 64) : Mat 10000 64 :=
  affine (hidden A X W1 b1 W2 b2) W (rowMat b)

end Cert.Gcn

end
-- ==== Proof.KernelRun.lean ====
/-
  The idealized kernel's run with its two results NAMED.

  The program is five pipelined regions among stretches of host operations; the generated frame folds the buffer
  contents through the nine segments (`Gen.W0 … Gen.W9`) and then keeps only "the arguments end as launched". Here the
  same launch over the same segments keeps more of the last boundary: the two result buffers hold what the fold says
  they hold, `Gen.W9` at those buffers. What that is, as a function of the arguments, is the business of the sibling
  modules.
-/
import proofs.«168686_g15908558864605_cont_sun_m_580_3_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and the arguments as launched. -/
theorem run : θ_run defs (onTc (τ := τ) (main (F := F))) ⟨m, fun _ => 0, ρ⟩ (fun r => ∀ c : Dev nD,
      r.2.mem ((c.tc : Thread nD τ).loc main_v10) = W9 m ρ c (Proc.devRef .tc main_v10)
      ∧ r.2.mem ((c.tc : Thread nD τ).loc main_v11) = W9 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v10 (by decide)),
       h c _ (mem_uc main_v11 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Results

end
-- ==== Proof.HostReads.lean ====
/-
  The host glue around the last layer, read at an index.

  The kernel's program applies ONE affine layer to the two heads side by side — the weights `[Wμ | Wσ]` concatenated
  along the columns, the biases `[bμ, bσ]` concatenated and reshaped to one row — and then cuts the result's columns
  `0…63` and `64…127`. Column `s` of the joint layer only ever meets column `s` of the joint weights and entry
  `s` of the joint bias, so each cut is the affine layer of its own head: no arithmetic law is involved, only where an
  index falls in a concatenation.
-/
import proofs.«168686_g15908558864605_cont_sun_m_580_3_alg».proof.Proof.Spec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

/-- A length-`p` vector reshaped to `[1, p]` is that vector as a one-row matrix. -/
theorem reshape_row {p : Nat} (b : Row p) (h : (⟨1, ![p]⟩ : Shape).ShapeCasts ⟨2, ![1, p]⟩) :
    shapeCast ⟨2, ![1, p]⟩ b h = rowMat b := by
  funext i
  rw [eq_ix2 i]
  exact shapeCast_a_1a_apply b h (i 0) (i 1)

/-- The layers agree when their operands do. -/
theorem affine_congr {n k p : Nat} {x x' : Mat n k} {w w' : Mat k p} {b b' : Mat 1 p}
    (hx : x = x') (hw : w = w') (hb : b = b') : affine x w b = affine x' w' b' := by
  subst hx hw hb; rfl

theorem aggregate_congr {n k p : Nat} {a a' : Mat n k} {h h' : Mat k p}
    (ha : a = a') (hh : h = h') : aggregate a h = aggregate a' h' := by
  subst ha hh; rfl

section Heads
variable {n k : Nat} (H : Mat n k) (Wa Wb : Mat k 64) (ba bb : Row 64)
  (hc : Shape.Concatenates [(⟨2, ![k, 64]⟩ : Shape), ⟨2, ![k, 64]⟩] ⟨2, ![k, 128]⟩ (1 : Fin 2))
  (hcb : Shape.Concatenates [(⟨1, ![64]⟩ : Shape), ⟨1, ![64]⟩] ⟨1, ![128]⟩ (0 : Fin 1))
  (hs : (⟨1, ![128]⟩ : Shape).ShapeCasts ⟨2, ![1, 128]⟩)

/-- Columns `0…63` of the joint layer are the first head's layer. -/
theorem head_left (hsl : (⟨2, ![n, 128]⟩ : Shape).Slices ![0, 0] ⟨2, ![n, 64]⟩) :
    extractStridedSlice ⟨2, ![n, 64]⟩ ![0, 0]
      (affine H (concatenate ⟨2, ![k, 128]⟩ 1 [⟨⟨2, ![k, 64]⟩, Wa⟩, ⟨⟨2, ![k, 64]⟩, Wb⟩] hc)
        (shapeCast ⟨2, ![1, 128]⟩ (concatenate ⟨1, ![128]⟩ 0 [⟨⟨1, ![64]⟩, ba⟩, ⟨⟨1, ![64]⟩, bb⟩] hcb) hs)) hsl
      = affine H Wa (rowMat ba) := by
  funext i
  rw [eq_ix2 i]
  have hlt : (i 1).val < 64 := (i 1).isLt
  refine (slice2_axis1_apply 0 _ hsl (i 0) (i 1) (⟨(i 1).val, by omega⟩ : Fin 128) (Nat.zero_add _).symm).trans ?_
  unfold affine
  refine congrArg₂ (· + ·) (Finset.sum_congr rfl fun q _ => congrArg (H (ix2 (i 0) q) * ·) ?_) ?_
  · exact concatenate_pair_apply_left (t := ⟨2, ![k, 128]⟩) (1 : Fin 2) Wa Wb hc
      (ix2 q (⟨(i 1).val, by omega⟩ : Fin 128)) rfl (ix2 q (i 1))
      (fun b => by match b with | ⟨0, _⟩ => rfl | ⟨1, _⟩ => rfl)
  · refine (shapeCast_a_1a_apply _ hs (0 : Fin 1) (⟨(i 1).val, by omega⟩ : Fin 128)).trans ?_
    exact concatenate_pair_apply_left (t := ⟨1, ![128]⟩) (0 : Fin 1) ba bb hcb
      (ix1 (⟨(i 1).val, by omega⟩ : Fin 128)) rfl (ix1 (i 1))
      (fun b => by match b with | ⟨0, _⟩ => rfl)

/-- Columns `64…127` of the joint layer are the second head's layer. -/
theorem head_right (hsl : (⟨2, ![n, 128]⟩ : Shape).Slices ![0, 64] ⟨2, ![n, 64]⟩) :
    extractStridedSlice ⟨2, ![n, 64]⟩ ![0, 64]
      (affine H (concatenate ⟨2, ![k, 128]⟩ 1 [⟨⟨2, ![k, 64]⟩, Wa⟩, ⟨⟨2, ![k, 64]⟩, Wb⟩] hc)
        (shapeCast ⟨2, ![1, 128]⟩ (concatenate ⟨1, ![128]⟩ 0 [⟨⟨1, ![64]⟩, ba⟩, ⟨⟨1, ![64]⟩, bb⟩] hcb) hs)) hsl
      = affine H Wb (rowMat bb) := by
  funext i
  rw [eq_ix2 i]
  have hlt : (i 1).val < 64 := (i 1).isLt
  refine (slice2_axis1_apply 64 _ hsl (i 0) (i 1) (⟨64 + (i 1).val, by omega⟩ : Fin 128) rfl).trans ?_
  unfold affine
  refine congrArg₂ (· + ·) (Finset.sum_congr rfl fun q _ => congrArg (H (ix2 (i 0) q) * ·) ?_) ?_
  · exact concatenate_pair_apply_right (t := ⟨2, ![k, 128]⟩) (1 : Fin 2) Wa Wb hc
      (ix2 q (⟨64 + (i 1).val, by omega⟩ : Fin 128)) rfl rfl (ix2 q (i 1))
      (fun b hb => by match b with | ⟨0, _⟩ => rfl | ⟨1, _⟩ => exact absurd rfl hb)
      (Nat.add_comm _ _)
  · refine (shapeCast_a_1a_apply _ hs (0 : Fin 1) (⟨64 + (i 1).val, by omega⟩ : Fin 128)).trans ?_
    exact concatenate_pair_apply_right (t := ⟨1, ![128]⟩) (0 : Fin 1) ba bb hcb
      (ix1 (⟨64 + (i 1).val, by omega⟩ : Fin 128)) rfl rfl (ix1 (i 1))
      (fun b hb => by match b with | ⟨0, _⟩ => exact absurd rfl hb)
      (Nat.add_comm _ _)

end Heads

end Cert.Gcn

end
-- ==== Proof.Affine0.lean ====
/-
  Region 0 of the kernel program: the first projection, an affine layer computed on blocks of 2000 rows.

  The region's grid has 5 points. Point `t` stages rows `2000·t … 2000·t + 1999` of the `10000 × 128` input, the whole
  `128 × 256` weights and the one-row bias, and stores the block's product with the weights plus the bias row broadcast
  down the rows. Read at an index, the product into a zero accumulator is the plain sum over the contracted axis; row
  `p` of block `t` is row `2000·t + p` of the array; and the 5 blocks tile the output. So, whatever three arrays the
  region finds at its entry, it leaves `X·W + b` of them in its output array.
-/
import proofs.«168686_g15908558864605_cont_sun_m_580_3_alg».proof.Proof.Gen.KernelIdeal.Frame
import proofs.«168686_g15908558864605_cont_sun_m_580_3_alg».proof.Proof.Spec
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.Affine0

open Cert.KernelIdeal Cert.KernelIdeal.Gen Cert.Gcn
open Idealize.ShloMosaic Idealize.ShloMosaic.TcCoe Idealize.SL.Sem Idealize.ShloMosaic.ValueIdx
open Idealize.ShloMosaic.Pipeline (Dat)

/-- The contraction record of the body's product: rows of the input block against columns of the weights. -/
abbrev D := dot_S2000x128_S128x256_S2000x256_1_0_0_1_n_n

theorem lhs_0 (i : S2000x256.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_1 (i : S2000x256.Idx) (q : D.contr.Idx) : (D.lhsIdx i q 1).val = (q ⟨0, by decide⟩).val :=
  D.lhsIdx_val_of_single rfl i q
theorem rhs_0 (i : S2000x256.Idx) (q : D.contr.Idx) : (D.rhsIdx i q 0).val = (q ⟨0, by decide⟩).val :=
  D.rhsIdx_val_of_single rfl i q
theorem rhs_1 (i : S2000x256.Idx) (q : D.contr.Idx) : (D.rhsIdx i q 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- The product into a zero accumulator, at row `p` and column `q`, is the plain sum over the contracted axis. -/
theorem matmul_at (x0 : FVec Ideal S2000x128 .f32) (x1 : FVec Ideal S128x256 .f32) (p : Fin 2000) (q : Fin 256) :
    FloatOps.matmul D none x0 x1 (constant S2000x256 .f32 0x00000000#32) (ix2 p q)
      = ∑ k : Fin 128, x0 (ix2 p k) * x1 (ix2 k q) := by
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

/-- What the body stores, at row `p` and column `q` of the block: the row-by-column sum plus the bias row's entry `q`. -/
theorem pay_at (x0 : Vec Ideal S2000x128 .f32) (x1 : Vec Ideal S128x256 .f32) (x2 : Vec Ideal S1x256 .f32) (p : Fin 2000) (q : Fin 256) :
    k0_pay1 (F := Ideal) x0 x1 x2 (ix2 p q) = (∑ k : Fin 128, x0 (ix2 p k) * x1 (ix2 k q)) + x2 (ix2 (0 : Fin 1) q) := by
  unfold k0_pay1
  simp only [shapeCast_self]
  exact congrArg₂ (· + ·) (matmul_at x0 x1 p q) (broadcastTo_1b_ab_apply x2 _ p q)

/-- A block of 2000 rows of the input starting at row `r`, against the whole weights and the bias row: the stored
    block is rows `r … r+1999` of `X·W + b`. -/
theorem block_at (X : Mat 10000 128) (W : Mat 128 256) (B : Mat 1 256)
    (x0 : Vec Ideal S2000x128 .f32) (x1 : Vec Ideal S128x256 .f32) (x2 : Vec Ideal S1x256 .f32)
    (r : Nat) (hr : r + 2000 ≤ 10000)
    (h0 : ∀ (p : Fin 2000) (k : Fin 128), x0 (ix2 p k) = X (ix2 (⟨r + p.val, by omega⟩ : Fin 10000) k))
    (h1 : ∀ (k : Fin 128) (q : Fin 256), x1 (ix2 k q) = W (ix2 k q))
    (h2 : ∀ q : Fin 256, x2 (ix2 (0 : Fin 1) q) = B (ix2 (0 : Fin 1) q))
    (p : Fin 2000) (q : Fin 256) :
    k0_pay1 (F := Ideal) x0 x1 x2 (ix2 p q) = affine X W B (ix2 (⟨r + p.val, by omega⟩ : Fin 10000) q) := by
  rw [pay_at]
  unfold affine
  exact congrArg₂ (· + ·) (Finset.sum_congr rfl fun k _ => by rw [h0, h1]) (h2 q)

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's row-block index is the point, every other
    block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every row block is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- What point `t` writes back is block `t` of `X·W + b` of the three arrays as the region finds them. -/
theorem flushed_eq (c : Dev nD) (t : Fin cfg0.N) :
    (dat0 V c).flushed 3 t = ((cfg0.win 3).blk t).view.read (Elt Ideal)
      (affine (n := 10000) (k := 128) (p := 256) (V c main_arg1) (V c main_arg2) (V c main_v0)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  obtain ⟨e0, e1, e2, e3, e4, e5, e6, e7⟩ := idx_facts t
  funext j
  have hj0 : (j 0).val < 2000 := (j 0).isLt
  have hj1 : (j 1).val < 256 := (j 1).isLt
  refine (congrArg (k0_pay1 (F := Ideal) (iblk0 V c 0 t) (iblk0 V c 1 t) (iblk0 V c 2 t)) (eq_ix2 j)).trans ?_
  refine (block_at (V c main_arg1) (V c main_arg2) (V c main_v0) (iblk0 V c 0 t) (iblk0 V c 1 t) (iblk0 V c 2 t)
    (win0_3.index t (0 : Fin 2) * 2000) (by omega) ?_ ?_ ?_ (j 0) (j 1)).trans ?_
  · intro p k
    show V c main_arg1 (((cfg0.win 0).blk t).view.emb (ix2 p k)) = _
    refine congrArg (V c main_arg1) (funext fun a => Fin.ext ?_)
    match a with
    | ⟨0, _⟩ => show win0_0.index t (0 : Fin 2) * 2000 + 1 * p.val = win0_3.index t (0 : Fin 2) * 2000 + p.val; omega
    | ⟨1, _⟩ => show win0_0.index t (1 : Fin 2) * 128 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · intro q
    show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  · show _ = affine (n := 10000) (k := 128) (p := 256) (V c main_arg1) (V c main_arg2) (V c main_v0) (((cfg0.win 3).blk t).view.emb j)
    refine congrArg (affine (n := 10000) (k := 128) (p := 256) (V c main_arg1) (V c main_arg2) (V c main_v0)) (funext fun a => Fin.ext ?_)
    match a with
    | ⟨0, _⟩ => show win0_3.index t (0 : Fin 2) * 2000 + (j 0).val = win0_3.index t (0 : Fin 2) * 2000 + 1 * (j 0).val; omega
    | ⟨1, _⟩ => show (j 1).val = win0_3.index t (1 : Fin 2) * 256 + 1 * (j 1).val; omega

/-- An index of the output array is in point `t`'s block iff each coordinate is in the block's range on its axis. -/
theorem mem_blk (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- The 5 blocks of 2000 rows cover the output array: row `r` is in block `r / 2000`. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the region: `X·W + b` of the input, the weights and the bias row as the region finds them. -/
theorem final (c : Dev nD) :
    (dat0 V c).arrAt 3 cfg0.N = affine (n := 10000) (k := 128) (p := 256) (V c main_arg1) (V c main_arg2) (V c main_v0) :=
  (dat0 V c).arrAt_eq_of_cover 3 _ (fun t _ => flushed_eq V c t) cover

end

end Cert.KernelIdeal.Affine0

end
-- ==== Proof.Agg1.lean ====
/-
  Region 1 of the kernel program: the first hidden state, an aggregation over the graph computed on blocks of 400 rows.

  The region's grid has 25 points. Point `t` stages rows `400·t … 400·t + 399` of the `10000 × 10000` adjacency and the
  whole `10000 × 256` feature array, and stores the larger of the block's product with the features and zero. Read at
  an index, the product into a zero accumulator is the plain sum over all 10000 neighbours; row `p` of block `t` is row
  `400·t + p` of the array; and the 25 blocks tile the output. So, whatever two arrays the region finds at its entry,
  it leaves `max(A·H, 0)` of them in its output array.
-/
import proofs.«168686_g15908558864605_cont_sun_m_580_3_alg».proof.Proof.Gen.KernelIdeal.Frame
import proofs.«168686_g15908558864605_cont_sun_m_580_3_alg».proof.Proof.Spec
import Idealize.ShloMosaic.Lib.Pipeline.Value
import Idealize.ShloMosaic.Lib.ValueIdx
import Idealize.ShloMosaic.PureOps.Ideal.Laws

noncomputable section

namespace Cert.KernelIdeal.Agg1

open Cert.KernelIdeal Cert.KernelIdeal.Gen Cert.Gcn
open Idealize.ShloMosaic Idealize.ShloMosaic.TcCoe Idealize.SL.Sem Idealize.ShloMosaic.ValueIdx
open Idealize.ShloMosaic.Pipeline (Dat)

/-- The contraction record of the body's product: rows of the adjacency block against columns of the features. -/
abbrev D := dot_S400x10000_S10000x256_S400x256_1_0_0_1_n_n

theorem lhs_0 (i : S400x256.Idx) (q : D.contr.Idx) : (D.lhsIdx i q 0).val = (i 0).val := by
  unfold DotDims.lhsIdx
  rw [dif_neg (show ¬(0 : Fin S400x10000.rank) ∈ D.lhsBatch by decide), dif_pos (show (0 : Fin S400x10000.rank) ∈ D.lhsNonContracting by decide)]
  rfl
theorem lhs_1 (i : S400x256.Idx) (q : D.contr.Idx) : (D.lhsIdx i q 1).val = (q ⟨0, by decide⟩).val :=
  D.lhsIdx_val_of_single rfl i q
theorem rhs_0 (i : S400x256.Idx) (q : D.contr.Idx) : (D.rhsIdx i q 0).val = (q ⟨0, by decide⟩).val :=
  D.rhsIdx_val_of_single rfl i q
theorem rhs_1 (i : S400x256.Idx) (q : D.contr.Idx) : (D.rhsIdx i q 1).val = (i 1).val := by
  unfold DotDims.rhsIdx
  rw [dif_neg (show ¬(1 : Fin S10000x256.rank) ∈ D.rhsBatch by decide), dif_pos (show (1 : Fin S10000x256.rank) ∈ D.rhsNonContracting by decide)]
  rfl

/-- The product into a zero accumulator, at row `p` and column `q`, is the plain sum over the contracted axis. -/
theorem matmul_at (x0 : FVec Ideal S400x10000 .f32) (x1 : FVec Ideal S10000x256 .f32) (p : Fin 400) (q : Fin 256) :
    FloatOps.matmul D none x0 x1 (constant S400x256 .f32 0x00000000#32) (ix2 p q)
      = ∑ k : Fin 10000, x0 (ix2 p k) * x1 (ix2 k q) := by
  rw [Ideal.matmul_constant_zero_apply, ← Equiv.sum_comp (contrEquiv1 D 10000 rfl rfl).symm]
  refine Finset.sum_congr rfl fun k _ => ?_
  have hk := contrEquiv1_symm_val D 10000 rfl rfl k
  have el : D.lhsIdx (ix2 p q) ((contrEquiv1 D 10000 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 10000 rfl rfl).symm k) = ix2 k q := funext fun a => Fin.ext (by
    match a with
    | ⟨0, _⟩ => exact (rhs_0 _ _).trans hk
    | ⟨1, _⟩ => exact rhs_1 _ _)
  rw [el, er]

/-- What the body stores, at row `p` and column `q` of the block: the larger of the row-by-column sum and zero. -/
theorem pay_at (x0 : Vec Ideal S400x10000 .f32) (x1 : Vec Ideal S10000x256 .f32) (p : Fin 400) (q : Fin 256) :
    k1_pay1 (F := Ideal) x0 x1 (ix2 p q) = max (∑ k : Fin 10000, x0 (ix2 p k) * x1 (ix2 k q)) zeroWord := by
  unfold k1_pay1
  rw [shapeCast_self]
  exact congrArg (max · zeroWord) (matmul_at x0 x1 p q)

/-- A block of 400 rows of the adjacency starting at row `r`, against the whole feature array: the stored block is
    rows `r … r+399` of `max(A·H, 0)`. -/
theorem block_at (A : Mat 10000 10000) (H : Mat 10000 256) (x0 : Vec Ideal S400x10000 .f32) (x1 : Vec Ideal S10000x256 .f32)
    (r : Nat) (hr : r + 400 ≤ 10000)
    (h0 : ∀ (p : Fin 400) (k : Fin 10000), x0 (ix2 p k) = A (ix2 (⟨r + p.val, by omega⟩ : Fin 10000) k))
    (h1 : ∀ (k : Fin 10000) (q : Fin 256), x1 (ix2 k q) = H (ix2 k q))
    (p : Fin 400) (q : Fin 256) :
    k1_pay1 (F := Ideal) x0 x1 (ix2 p q) = aggregate A H (ix2 (⟨r + p.val, by omega⟩ : Fin 10000) q) := by
  rw [pay_at]
  unfold aggregate
  exact congrArg (max · zeroWord) (Finset.sum_congr rfl fun k _ => by rw [h0, h1])

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the output's row-block index is the point, every other
    block index is zero. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) ≤ 24 ∧ win1_2.index t (1 : Fin 2) = 0 :=
  (by decide +kernel : ∀ t : Fin grid1.N, _)

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of `max(A·H, 0)` of the two arrays as the region finds them. -/
theorem flushed_eq (c : Dev nD) (t : Fin cfg1.N) :
    (dat1 V c).flushed 2 t = ((cfg1.win 2).blk t).view.read (Elt Ideal)
      (aggregate (n := 10000) (k := 10000) (p := 256) (V c main_arg0) (V c main_v1)) := by
  show (cfg1.win 2).cut (grid1.coords t) ((dat1 V c).after 2 t) = _
  rw [after1_2]
  unfold out1_2
  rw [View.canon_unit_zero hz]
  simp only [View.ld_unit_zero (S := S400x10000) hz, View.ld_unit_zero (S := S10000x256) hz]
  obtain ⟨e0, e1, e2, e3, e4, e5⟩ := idx_facts t
  funext j
  have hj0 : (j 0).val < 400 := (j 0).isLt
  have hj1 : (j 1).val < 256 := (j 1).isLt
  refine (congrArg (k1_pay1 (F := Ideal) (iblk1 V c 0 t) (iblk1 V c 1 t)) (eq_ix2 j)).trans ?_
  refine (block_at (V c main_arg0) (V c main_v1) (iblk1 V c 0 t) (iblk1 V c 1 t)
    (win1_2.index t (0 : Fin 2) * 400) (by omega) ?_ ?_ (j 0) (j 1)).trans ?_
  · intro p k
    show V c main_arg0 (((cfg1.win 0).blk t).view.emb (ix2 p k)) = _
    refine congrArg (V c main_arg0) (funext fun a => Fin.ext ?_)
    match a with
    | ⟨0, _⟩ => show win1_0.index t (0 : Fin 2) * 400 + 1 * p.val = win1_2.index t (0 : Fin 2) * 400 + p.val; omega
    | ⟨1, _⟩ => show win1_0.index t (1 : Fin 2) * 10000 + 1 * k.val = k.val; omega
  · intro k q
    show V c main_v1 (((cfg1.win 1).blk t).view.emb (ix2 k q)) = _
    refine congrArg (V c main_v1) (funext fun a => Fin.ext ?_)
    match a with
    | ⟨0, _⟩ => show win1_1.index t (0 : Fin 2) * 10000 + 1 * k.val = k.val; omega
    | ⟨1, _⟩ => show win1_1.index t (1 : Fin 2) * 256 + 1 * q.val = q.val; omega
  · show _ = aggregate (n := 10000) (k := 10000) (p := 256) (V c main_arg0) (V c main_v1) (((cfg1.win 2).blk t).view.emb j)
    refine congrArg (aggregate (n := 10000) (k := 10000) (p := 256) (V c main_arg0) (V c main_v1)) (funext fun a => Fin.ext ?_)
    match a with
    | ⟨0, _⟩ => show win1_2.index t (0 : Fin 2) * 400 + (j 0).val = win1_2.index t (0 : Fin 2) * 400 + 1 * (j 0).val; omega
    | ⟨1, _⟩ => show (j 1).val = win1_2.index t (1 : Fin 2) * 256 + 1 * (j 1).val; omega

/-- An index of the output array is in point `t`'s block iff each coordinate is in the block's range on its axis. -/
theorem mem_blk (t : Fin cfg1.N) (i : S10000x256.Idx) :
    i ∈ ((cfg1.win 2).blk t).view.set ↔ ∀ a : Fin 2, win1_2.index t a * S400x256.size a ≤ (i a).val ∧ (i a).val < win1_2.index t a * S400x256.size a + S400x256.size a := by
  show i ∈ ((View.whole main_v2).slice (win1_2.rect t)).set ↔ _
  rw [View.set_slice_whole, Rect.mem_set_unit]
  exact Iff.rfl

/-- The 25 blocks of 400 rows cover the output array: row `r` is in block `r / 400`. -/
theorem cover (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  obtain ⟨t, ht⟩ := idx_onto ⟨(i 0).val / 400, by omega⟩
  have q0 : win1_2.index t (0 : Fin 2) = (i 0).val / 400 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 256 ≤ (i 1).val ∧ (i 1).val < win1_2.index t (1 : Fin 2) * 256 + 256; omega

/-- The output array after the region: `max(A·H, 0)` of the adjacency and the feature array as the region finds them. -/
theorem final (c : Dev nD) :
    (dat1 V c).arrAt 2 cfg1.N = aggregate (n := 10000) (k := 10000) (p := 256) (V c main_arg0) (V c main_v1) :=
  (dat1 V c).arrAt_eq_of_cover 2 _ (fun t _ => flushed_eq V c t) cover

end

end Cert.KernelIdeal.Agg1

end
-- ==== Proof.Affine2.lean ====
/-
  Region 2 of the kernel program: the second projection, an affine layer computed on blocks of 2000 rows.

  The region's grid has 5 points. Point `t` stages rows `2000·t … 2000·t + 1999` of the `10000 × 256` input, the whole
  `256 × 256` weights and the one-row bias, and stores the block's product with the weights plus the bias row broadcast
  down the rows. Read at an index, the product into a zero accumulator is the plain sum over the contracted axis; row
  `p` of block `t` is row `2000·t + p` of the array; and the 5 blocks tile the output. So, whatever three arrays the
  region finds at its entry, it leaves `X·W + b` of them in its output array.
-/
import proofs.«168686_g15908558864605_cont_sun_m_580_3_alg».proof.Proof.Gen.KernelIdeal.Frame
import proofs.«168686_g15908558864605_cont_sun_m_580_3_alg».proof.Proof.Spec
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.Affine2

open Cert.KernelIdeal Cert.KernelIdeal.Gen Cert.Gcn
open Idealize.ShloMosaic Idealize.ShloMosaic.TcCoe Idealize.SL.Sem Idealize.ShloMosaic.ValueIdx
open Idealize.ShloMosaic.Pipeline (Dat)

/-- The contraction record of the body's product: rows of the input block against columns of the weights. -/
abbrev D := dot_S2000x256_S256x256_S2000x256_1_0_0_1_n_n

theorem lhs_0 (i : S2000x256.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs_1 (i : S2000x256.Idx) (q : D.contr.Idx) : (D.lhsIdx i q 1).val = (q ⟨0, by decide⟩).val :=
  D.lhsIdx_val_of_single rfl i q
theorem rhs_0 (i : S2000x256.Idx) (q : D.contr.Idx) : (D.rhsIdx i q 0).val = (q ⟨0, by decide⟩).val :=
  D.rhsIdx_val_of_single rfl i q
theorem rhs_1 (i : S2000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- The product into a zero accumulator, at row `p` and column `q`, is the plain sum over the contracted axis. -/
theorem matmul_at (x0 : FVec Ideal S2000x256 .f32) (x1 : FVec Ideal S256x256 .f32) (p : Fin 2000) (q : Fin 256) :
    FloatOps.matmul D none x0 x1 (constant S2000x256 .f32 0x00000000#32) (ix2 p q)
      = ∑ k : Fin 256, x0 (ix2 p k) * x1 (ix2 k q) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 256 rfl rfl).symm k) = ix2 k q := funext fun a => Fin.ext (by
    match a with
    | ⟨0, _⟩ => exact (rhs_0 _ _).trans hk
    | ⟨1, _⟩ => exact rhs_1 _ _)
  rw [el, er]

/-- What the body stores, at row `p` and column `q` of the block: the row-by-column sum plus the bias row's entry `q`. -/
theorem pay_at (x0 : Vec Ideal S2000x256 .f32) (x1 : Vec Ideal S256x256 .f32) (x2 : Vec Ideal S1x256 .f32) (p : Fin 2000) (q : Fin 256) :
    k2_pay1 (F := Ideal) x0 x1 x2 (ix2 p q) = (∑ k : Fin 256, x0 (ix2 p k) * x1 (ix2 k q)) + x2 (ix2 (0 : Fin 1) q) := by
  unfold k2_pay1
  simp only [shapeCast_self]
  exact congrArg₂ (· + ·) (matmul_at x0 x1 p q) (broadcastTo_1b_ab_apply x2 _ p q)

/-- A block of 2000 rows of the input starting at row `r`, against the whole weights and the bias row: the stored
    block is rows `r … r+1999` of `X·W + b`. -/
theorem block_at (X : Mat 10000 256) (W : Mat 256 256) (B : Mat 1 256)
    (x0 : Vec Ideal S2000x256 .f32) (x1 : Vec Ideal S256x256 .f32) (x2 : Vec Ideal S1x256 .f32)
    (r : Nat) (hr : r + 2000 ≤ 10000)
    (h0 : ∀ (p : Fin 2000) (k : Fin 256), x0 (ix2 p k) = X (ix2 (⟨r + p.val, by omega⟩ : Fin 10000) k))
    (h1 : ∀ (k : Fin 256) (q : Fin 256), x1 (ix2 k q) = W (ix2 k q))
    (h2 : ∀ q : Fin 256, x2 (ix2 (0 : Fin 1) q) = B (ix2 (0 : Fin 1) q))
    (p : Fin 2000) (q : Fin 256) :
    k2_pay1 (F := Ideal) x0 x1 x2 (ix2 p q) = affine X W B (ix2 (⟨r + p.val, by omega⟩ : Fin 10000) q) := by
  rw [pay_at]
  unfold affine
  exact congrArg₂ (· + ·) (Finset.sum_congr rfl fun k _ => by rw [h0, h1]) (h2 q)

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's row-block index is the point, every other
    block index is zero. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 4 ∧ win2_3.index t (1 : Fin 2) = 0 :=
  (by decide +kernel : ∀ t : Fin grid2.N, _)

/-- Every row block is some point's. -/
theorem idx_onto : ∀ q0 : Fin 5, ∃ t : Fin cfg2.N, win2_3.index t = ![q0.val, 0] :=
  (by decide +kernel : ∀ q0 : Fin 5, ∃ t : Fin grid2.N, win2_3.index t = ![q0.val, 0])

/-- What point `t` writes back is block `t` of `X·W + b` of the three arrays as the region finds them. -/
theorem flushed_eq (c : Dev nD) (t : Fin cfg2.N) :
    (dat2 V c).flushed 3 t = ((cfg2.win 3).blk t).view.read (Elt Ideal)
      (affine (n := 10000) (k := 256) (p := 256) (V c main_v2) (V c main_arg4) (V c main_v3)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz, View.ld_unit_zero (S := S1x256) hz]
  obtain ⟨e0, e1, e2, e3, e4, e5, e6, e7⟩ := idx_facts t
  funext j
  have hj0 : (j 0).val < 2000 := (j 0).isLt
  have hj1 : (j 1).val < 256 := (j 1).isLt
  refine (congrArg (k2_pay1 (F := Ideal) (iblk2 V c 0 t) (iblk2 V c 1 t) (iblk2 V c 2 t)) (eq_ix2 j)).trans ?_
  refine (block_at (V c main_v2) (V c main_arg4) (V c main_v3) (iblk2 V c 0 t) (iblk2 V c 1 t) (iblk2 V c 2 t)
    (win2_3.index t (0 : Fin 2) * 2000) (by omega) ?_ ?_ ?_ (j 0) (j 1)).trans ?_
  · intro p k
    show V c main_v2 (((cfg2.win 0).blk t).view.emb (ix2 p k)) = _
    refine congrArg (V c main_v2) (funext fun a => Fin.ext ?_)
    match a with
    | ⟨0, _⟩ => show win2_0.index t (0 : Fin 2) * 2000 + 1 * p.val = win2_3.index t (0 : Fin 2) * 2000 + p.val; omega
    | ⟨1, _⟩ => show win2_0.index t (1 : Fin 2) * 256 + 1 * k.val = k.val; omega
  · intro k q
    show V c main_arg4 (((cfg2.win 1).blk t).view.emb (ix2 k q)) = _
    refine congrArg (V c main_arg4) (funext fun a => Fin.ext ?_)
    match a with
    | ⟨0, _⟩ => show win2_1.index t (0 : Fin 2) * 256 + 1 * k.val = k.val; omega
    | ⟨1, _⟩ => show win2_1.index t (1 : Fin 2) * 256 + 1 * q.val = q.val; omega
  · intro q
    show V c main_v3 (((cfg2.win 2).blk t).view.emb (ix2 (0 : Fin 1) q)) = _
    refine congrArg (V c main_v3) (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega
  · show _ = affine (n := 10000) (k := 256) (p := 256) (V c main_v2) (V c main_arg4) (V c main_v3) (((cfg2.win 3).blk t).view.emb j)
    refine congrArg (affine (n := 10000) (k := 256) (p := 256) (V c main_v2) (V c main_arg4) (V c main_v3)) (funext fun a => Fin.ext ?_)
    match a with
    | ⟨0, _⟩ => show win2_3.index t (0 : Fin 2) * 2000 + (j 0).val = win2_3.index t (0 : Fin 2) * 2000 + 1 * (j 0).val; omega
    | ⟨1, _⟩ => show (j 1).val = win2_3.index t (1 : Fin 2) * 256 + 1 * (j 1).val; omega

/-- An index of the output array is in point `t`'s block iff each coordinate is in the block's range on its axis. -/
theorem mem_blk (t : Fin cfg2.N) (i : S10000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v4).slice (win2_3.rect t)).set ↔ _
  rw [View.set_slice_whole, Rect.mem_set_unit]
  exact Iff.rfl

/-- The 5 blocks of 2000 rows cover the output array: row `r` is in block `r / 2000`. -/
theorem cover (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The output array after the region: `X·W + b` of the input, the weights and the bias row as the region finds them. -/
theorem final (c : Dev nD) :
    (dat2 V c).arrAt 3 cfg2.N = affine (n := 10000) (k := 256) (p := 256) (V c main_v2) (V c main_arg4) (V c main_v3) :=
  (dat2 V c).arrAt_eq_of_cover 3 _ (fun t _ => flushed_eq V c t) cover

end

end Cert.KernelIdeal.Affine2

end
-- ==== Proof.Agg3.lean ====
/-
  Region 3 of the kernel program: the second hidden state, an aggregation over the graph computed on blocks of 400 rows.

  The region's grid has 25 points. Point `t` stages rows `400·t … 400·t + 399` of the `10000 × 10000` adjacency and the
  whole `10000 × 256` feature array, and stores the larger of the block's product with the features and zero. Read at
  an index, the product into a zero accumulator is the plain sum over all 10000 neighbours; row `p` of block `t` is row
  `400·t + p` of the array; and the 25 blocks tile the output. So, whatever two arrays the region finds at its entry,
  it leaves `max(A·H, 0)` of them in its output array.
-/
import proofs.«168686_g15908558864605_cont_sun_m_580_3_alg».proof.Proof.Gen.KernelIdeal.Frame
import proofs.«168686_g15908558864605_cont_sun_m_580_3_alg».proof.Proof.Spec
import Idealize.ShloMosaic.Lib.Pipeline.Value
import Idealize.ShloMosaic.Lib.ValueIdx
import Idealize.ShloMosaic.PureOps.Ideal.Laws

noncomputable section

namespace Cert.KernelIdeal.Agg3

open Cert.KernelIdeal Cert.KernelIdeal.Gen Cert.Gcn
open Idealize.ShloMosaic Idealize.ShloMosaic.TcCoe Idealize.SL.Sem Idealize.ShloMosaic.ValueIdx
open Idealize.ShloMosaic.Pipeline (Dat)

/-- The contraction record of the body's product: rows of the adjacency block against columns of the features. -/
abbrev D := dot_S400x10000_S10000x256_S400x256_1_0_0_1_n_n

theorem lhs_0 (i : S400x256.Idx) (q : D.contr.Idx) : (D.lhsIdx i q 0).val = (i 0).val := by
  unfold DotDims.lhsIdx
  rw [dif_neg (show ¬(0 : Fin S400x10000.rank) ∈ D.lhsBatch by decide), dif_pos (show (0 : Fin S400x10000.rank) ∈ D.lhsNonContracting by decide)]
  rfl
theorem lhs_1 (i : S400x256.Idx) (q : D.contr.Idx) : (D.lhsIdx i q 1).val = (q ⟨0, by decide⟩).val :=
  D.lhsIdx_val_of_single rfl i q
theorem rhs_0 (i : S400x256.Idx) (q : D.contr.Idx) : (D.rhsIdx i q 0).val = (q ⟨0, by decide⟩).val :=
  D.rhsIdx_val_of_single rfl i q
theorem rhs_1 (i : S400x256.Idx) (q : D.contr.Idx) : (D.rhsIdx i q 1).val = (i 1).val := by
  unfold DotDims.rhsIdx
  rw [dif_neg (show ¬(1 : Fin S10000x256.rank) ∈ D.rhsBatch by decide), dif_pos (show (1 : Fin S10000x256.rank) ∈ D.rhsNonContracting by decide)]
  rfl

/-- The product into a zero accumulator, at row `p` and column `q`, is the plain sum over the contracted axis. -/
theorem matmul_at (x0 : FVec Ideal S400x10000 .f32) (x1 : FVec Ideal S10000x256 .f32) (p : Fin 400) (q : Fin 256) :
    FloatOps.matmul D none x0 x1 (constant S400x256 .f32 0x00000000#32) (ix2 p q)
      = ∑ k : Fin 10000, x0 (ix2 p k) * x1 (ix2 k q) := by
  rw [Ideal.matmul_constant_zero_apply, ← Equiv.sum_comp (contrEquiv1 D 10000 rfl rfl).symm]
  refine Finset.sum_congr rfl fun k _ => ?_
  have hk := contrEquiv1_symm_val D 10000 rfl rfl k
  have el : D.lhsIdx (ix2 p q) ((contrEquiv1 D 10000 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 10000 rfl rfl).symm k) = ix2 k q := funext fun a => Fin.ext (by
    match a with
    | ⟨0, _⟩ => exact (rhs_0 _ _).trans hk
    | ⟨1, _⟩ => exact rhs_1 _ _)
  rw [el, er]

/-- What the body stores, at row `p` and column `q` of the block: the larger of the row-by-column sum and zero. -/
theorem pay_at (x0 : Vec Ideal S400x10000 .f32) (x1 : Vec Ideal S10000x256 .f32) (p : Fin 400) (q : Fin 256) :
    k3_pay1 (F := Ideal) x0 x1 (ix2 p q) = max (∑ k : Fin 10000, x0 (ix2 p k) * x1 (ix2 k q)) zeroWord := by
  unfold k3_pay1
  rw [shapeCast_self]
  exact congrArg (max · zeroWord) (matmul_at x0 x1 p q)

/-- A block of 400 rows of the adjacency starting at row `r`, against the whole feature array: the stored block is
    rows `r … r+399` of `max(A·H, 0)`. -/
theorem block_at (A : Mat 10000 10000) (H : Mat 10000 256) (x0 : Vec Ideal S400x10000 .f32) (x1 : Vec Ideal S10000x256 .f32)
    (r : Nat) (hr : r + 400 ≤ 10000)
    (h0 : ∀ (p : Fin 400) (k : Fin 10000), x0 (ix2 p k) = A (ix2 (⟨r + p.val, by omega⟩ : Fin 10000) k))
    (h1 : ∀ (k : Fin 10000) (q : Fin 256), x1 (ix2 k q) = H (ix2 k q))
    (p : Fin 400) (q : Fin 256) :
    k3_pay1 (F := Ideal) x0 x1 (ix2 p q) = aggregate A H (ix2 (⟨r + p.val, by omega⟩ : Fin 10000) q) := by
  rw [pay_at]
  unfold aggregate
  exact congrArg (max · zeroWord) (Finset.sum_congr rfl fun k _ => by rw [h0, h1])

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the output's row-block index is the point, every other
    block index is zero. -/
theorem idx_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (0 : Fin 2) ≤ 24 ∧ win3_2.index t (1 : Fin 2) = 0 :=
  (by decide +kernel : ∀ t : Fin grid3.N, _)

/-- Every row block is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- What point `t` writes back is block `t` of `max(A·H, 0)` of the two arrays as the region finds them. -/
theorem flushed_eq (c : Dev nD) (t : Fin cfg3.N) :
    (dat3 V c).flushed 2 t = ((cfg3.win 2).blk t).view.read (Elt Ideal)
      (aggregate (n := 10000) (k := 10000) (p := 256) (V c main_arg0) (V c main_v4)) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x256) hz]
  obtain ⟨e0, e1, e2, e3, e4, e5⟩ := idx_facts t
  funext j
  have hj0 : (j 0).val < 400 := (j 0).isLt
  have hj1 : (j 1).val < 256 := (j 1).isLt
  refine (congrArg (k3_pay1 (F := Ideal) (iblk3 V c 0 t) (iblk3 V c 1 t)) (eq_ix2 j)).trans ?_
  refine (block_at (V c main_arg0) (V c main_v4) (iblk3 V c 0 t) (iblk3 V c 1 t)
    (win3_2.index t (0 : Fin 2) * 400) (by omega) ?_ ?_ (j 0) (j 1)).trans ?_
  · intro p k
    show V c main_arg0 (((cfg3.win 0).blk t).view.emb (ix2 p k)) = _
    refine congrArg (V c main_arg0) (funext fun a => Fin.ext ?_)
    match a with
    | ⟨0, _⟩ => show win3_0.index t (0 : Fin 2) * 400 + 1 * p.val = win3_2.index t (0 : Fin 2) * 400 + p.val; omega
    | ⟨1, _⟩ => show win3_0.index t (1 : Fin 2) * 10000 + 1 * k.val = k.val; omega
  · intro k q
    show V c main_v4 (((cfg3.win 1).blk t).view.emb (ix2 k q)) = _
    refine congrArg (V c main_v4) (funext fun a => Fin.ext ?_)
    match a with
    | ⟨0, _⟩ => show win3_1.index t (0 : Fin 2) * 10000 + 1 * k.val = k.val; omega
    | ⟨1, _⟩ => show win3_1.index t (1 : Fin 2) * 256 + 1 * q.val = q.val; omega
  · show _ = aggregate (n := 10000) (k := 10000) (p := 256) (V c main_arg0) (V c main_v4) (((cfg3.win 2).blk t).view.emb j)
    refine congrArg (aggregate (n := 10000) (k := 10000) (p := 256) (V c main_arg0) (V c main_v4)) (funext fun a => Fin.ext ?_)
    match a with
    | ⟨0, _⟩ => show win3_2.index t (0 : Fin 2) * 400 + (j 0).val = win3_2.index t (0 : Fin 2) * 400 + 1 * (j 0).val; omega
    | ⟨1, _⟩ => show (j 1).val = win3_2.index t (1 : Fin 2) * 256 + 1 * (j 1).val; omega

/-- An index of the output array is in point `t`'s block iff each coordinate is in the block's range on its axis. -/
theorem mem_blk (t : Fin cfg3.N) (i : S10000x256.Idx) :
    i ∈ ((cfg3.win 2).blk t).view.set ↔ ∀ a : Fin 2, win3_2.index t a * S400x256.size a ≤ (i a).val ∧ (i a).val < win3_2.index t a * S400x256.size a + S400x256.size a := by
  show i ∈ ((View.whole main_v5).slice (win3_2.rect t)).set ↔ _
  rw [View.set_slice_whole, Rect.mem_set_unit]
  exact Iff.rfl

/-- The 25 blocks of 400 rows cover the output array: row `r` is in block `r / 400`. -/
theorem cover (i : S10000x256.Idx) : ∃ t : Fin cfg3.N, (cfg3.win 2).flush t = true ∧ i ∈ ((cfg3.win 2).blk t).view.set := by
  have hi0 : (i 0).val < 10000 := (i 0).isLt
  have hi1 : (i 1).val < 256 := (i 1).isLt
  obtain ⟨t, ht⟩ := idx_onto ⟨(i 0).val / 400, by omega⟩
  have q0 : win3_2.index t (0 : Fin 2) = (i 0).val / 400 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 256 ≤ (i 1).val ∧ (i 1).val < win3_2.index t (1 : Fin 2) * 256 + 256; omega

/-- The output array after the region: `max(A·H, 0)` of the adjacency and the feature array as the region finds them. -/
theorem final (c : Dev nD) :
    (dat3 V c).arrAt 2 cfg3.N = aggregate (n := 10000) (k := 10000) (p := 256) (V c main_arg0) (V c main_v4) :=
  (dat3 V c).arrAt_eq_of_cover 2 _ (fun t _ => flushed_eq V c t) cover

end

end Cert.KernelIdeal.Agg3

end
-- ==== Proof.Affine4.lean ====
/-
  Region 4 of the kernel program: the two heads side by side, an affine layer computed on blocks of 2000 rows.

  The region's grid has 5 points. Point `t` stages rows `2000·t … 2000·t + 1999` of the `10000 × 256` input, the whole
  `256 × 128` weights and the one-row bias, and stores the block's product with the weights plus the bias row broadcast
  down the rows. Read at an index, the product into a zero accumulator is the plain sum over the contracted axis; row
  `p` of block `t` is row `2000·t + p` of the array; and the 5 blocks tile the output. So, whatever three arrays the
  region finds at its entry, it leaves `X·W + b` of them in its output array.
-/
import proofs.«168686_g15908558864605_cont_sun_m_580_3_alg».proof.Proof.Gen.KernelIdeal.Frame
import proofs.«168686_g15908558864605_cont_sun_m_580_3_alg».proof.Proof.Spec
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.Affine4

open Cert.KernelIdeal Cert.KernelIdeal.Gen Cert.Gcn
open Idealize.ShloMosaic Idealize.ShloMosaic.TcCoe Idealize.SL.Sem Idealize.ShloMosaic.ValueIdx
open Idealize.ShloMosaic.Pipeline (Dat)

/-- The contraction record of the body's product: rows of the input block against columns of the weights. -/
abbrev D := dot_S2000x256_S256x128_S2000x128_1_0_0_1_n_n

theorem lhs_0 (i : S2000x128.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs_1 (i : S2000x128.Idx) (q : D.contr.Idx) : (D.lhsIdx i q 1).val = (q ⟨0, by decide⟩).val :=
  D.lhsIdx_val_of_single rfl i q
theorem rhs_0 (i : S2000x128.Idx) (q : D.contr.Idx) : (D.rhsIdx i q 0).val = (q ⟨0, by decide⟩).val :=
  D.rhsIdx_val_of_single rfl i q
theorem rhs_1 (i : S2000x128.Idx) (q : D.contr.Idx) : (D.rhsIdx i q 1).val = (i 1).val := by
  unfold DotDims.rhsIdx
  rw [dif_neg (show ¬(1 : Fin S256x128.rank) ∈ D.rhsBatch by decide), dif_pos (show (1 : Fin S256x128.rank) ∈ D.rhsNonContracting by decide)]
  rfl

/-- The product into a zero accumulator, at row `p` and column `q`, is the plain sum over the contracted axis. -/
theorem matmul_at (x0 : FVec Ideal S2000x256 .f32) (x1 : FVec Ideal S256x128 .f32) (p : Fin 2000) (q : Fin 128) :
    FloatOps.matmul D none x0 x1 (constant S2000x128 .f32 0x00000000#32) (ix2 p q)
      = ∑ k : Fin 256, x0 (ix2 p k) * x1 (ix2 k q) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 256 rfl rfl).symm k) = ix2 k q := funext fun a => Fin.ext (by
    match a with
    | ⟨0, _⟩ => exact (rhs_0 _ _).trans hk
    | ⟨1, _⟩ => exact rhs_1 _ _)
  rw [el, er]

/-- What the body stores, at row `p` and column `q` of the block: the row-by-column sum plus the bias row's entry `q`. -/
theorem pay_at (x0 : Vec Ideal S2000x256 .f32) (x1 : Vec Ideal S256x128 .f32) (x2 : Vec Ideal S1x128 .f32) (p : Fin 2000) (q : Fin 128) :
    k4_pay1 (F := Ideal) x0 x1 x2 (ix2 p q) = (∑ k : Fin 256, x0 (ix2 p k) * x1 (ix2 k q)) + x2 (ix2 (0 : Fin 1) q) := by
  unfold k4_pay1
  simp only [shapeCast_self]
  exact congrArg₂ (· + ·) (matmul_at x0 x1 p q) (broadcastTo_1b_ab_apply x2 _ p q)

/-- A block of 2000 rows of the input starting at row `r`, against the whole weights and the bias row: the stored
    block is rows `r … r+1999` of `X·W + b`. -/
theorem block_at (X : Mat 10000 256) (W : Mat 256 128) (B : Mat 1 128)
    (x0 : Vec Ideal S2000x256 .f32) (x1 : Vec Ideal S256x128 .f32) (x2 : Vec Ideal S1x128 .f32)
    (r : Nat) (hr : r + 2000 ≤ 10000)
    (h0 : ∀ (p : Fin 2000) (k : Fin 256), x0 (ix2 p k) = X (ix2 (⟨r + p.val, by omega⟩ : Fin 10000) k))
    (h1 : ∀ (k : Fin 256) (q : Fin 128), x1 (ix2 k q) = W (ix2 k q))
    (h2 : ∀ q : Fin 128, x2 (ix2 (0 : Fin 1) q) = B (ix2 (0 : Fin 1) q))
    (p : Fin 2000) (q : Fin 128) :
    k4_pay1 (F := Ideal) x0 x1 x2 (ix2 p q) = affine X W B (ix2 (⟨r + p.val, by omega⟩ : Fin 10000) q) := by
  rw [pay_at]
  unfold affine
  exact congrArg₂ (· + ·) (Finset.sum_congr rfl fun k _ => by rw [h0, h1]) (h2 q)

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's row-block index is the point, every other
    block index is zero. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 4 ∧ win4_3.index t (1 : Fin 2) = 0 :=
  (by decide +kernel : ∀ t : Fin grid4.N, _)

/-- Every row block is some point's. -/
theorem idx_onto : ∀ q0 : Fin 5, ∃ t : Fin cfg4.N, win4_3.index t = ![q0.val, 0] :=
  (by decide +kernel : ∀ q0 : Fin 5, ∃ t : Fin grid4.N, win4_3.index t = ![q0.val, 0])

/-- What point `t` writes back is block `t` of `X·W + b` of the three arrays as the region finds them. -/
theorem flushed_eq (c : Dev nD) (t : Fin cfg4.N) :
    (dat4 V c).flushed 3 t = ((cfg4.win 3).blk t).view.read (Elt Ideal)
      (affine (n := 10000) (k := 256) (p := 128) (V c main_v5) (V c main_v6) (V c main_v8)) := by
  show (cfg4.win 3).cut (grid4.coords t) ((dat4 V c).after 3 t) = _
  rw [after4_3]
  unfold out4_3
  rw [View.canon_unit_zero hz]
  simp only [View.ld_unit_zero (S := S2000x256) hz, View.ld_unit_zero (S := S256x128) hz, View.ld_unit_zero (S := S1x128) hz]
  obtain ⟨e0, e1, e2, e3, e4, e5, e6, e7⟩ := idx_facts t
  funext j
  have hj0 : (j 0).val < 2000 := (j 0).isLt
  have hj1 : (j 1).val < 128 := (j 1).isLt
  refine (congrArg (k4_pay1 (F := Ideal) (iblk4 V c 0 t) (iblk4 V c 1 t) (iblk4 V c 2 t)) (eq_ix2 j)).trans ?_
  refine (block_at (V c main_v5) (V c main_v6) (V c main_v8) (iblk4 V c 0 t) (iblk4 V c 1 t) (iblk4 V c 2 t)
    (win4_3.index t (0 : Fin 2) * 2000) (by omega) ?_ ?_ ?_ (j 0) (j 1)).trans ?_
  · intro p k
    show V c main_v5 (((cfg4.win 0).blk t).view.emb (ix2 p k)) = _
    refine congrArg (V c main_v5) (funext fun a => Fin.ext ?_)
    match a with
    | ⟨0, _⟩ => show win4_0.index t (0 : Fin 2) * 2000 + 1 * p.val = win4_3.index t (0 : Fin 2) * 2000 + p.val; omega
    | ⟨1, _⟩ => show win4_0.index t (1 : Fin 2) * 256 + 1 * k.val = k.val; omega
  · intro k q
    show V c main_v6 (((cfg4.win 1).blk t).view.emb (ix2 k q)) = _
    refine congrArg (V c main_v6) (funext fun a => Fin.ext ?_)
    match a with
    | ⟨0, _⟩ => show win4_1.index t (0 : Fin 2) * 256 + 1 * k.val = k.val; omega
    | ⟨1, _⟩ => show win4_1.index t (1 : Fin 2) * 128 + 1 * q.val = q.val; omega
  · intro q
    show V c main_v8 (((cfg4.win 2).blk t).view.emb (ix2 (0 : Fin 1) q)) = _
    refine congrArg (V c main_v8) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  · show _ = affine (n := 10000) (k := 256) (p := 128) (V c main_v5) (V c main_v6) (V c main_v8) (((cfg4.win 3).blk t).view.emb j)
    refine congrArg (affine (n := 10000) (k := 256) (p := 128) (V c main_v5) (V c main_v6) (V c main_v8)) (funext fun a => Fin.ext ?_)
    match a with
    | ⟨0, _⟩ => show win4_3.index t (0 : Fin 2) * 2000 + (j 0).val = win4_3.index t (0 : Fin 2) * 2000 + 1 * (j 0).val; omega
    | ⟨1, _⟩ => show (j 1).val = win4_3.index t (1 : Fin 2) * 128 + 1 * (j 1).val; omega

/-- An index of the output array is in point `t`'s block iff each coordinate is in the block's range on its axis. -/
theorem mem_blk (t : Fin cfg4.N) (i : S10000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v9).slice (win4_3.rect t)).set ↔ _
  rw [View.set_slice_whole, Rect.mem_set_unit]
  exact Iff.rfl

/-- The 5 blocks of 2000 rows cover the output array: row `r` is in block `r / 2000`. -/
theorem cover (i : S10000x128.Idx) : ∃ t : Fin cfg4.N, (cfg4.win 3).flush t = true ∧ i ∈ ((cfg4.win 3).blk t).view.set := by
  have hi0 : (i 0).val < 10000 := (i 0).isLt
  have hi1 : (i 1).val < 128 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The output array after the region: `X·W + b` of the input, the weights and the bias row as the region finds them. -/
theorem final (c : Dev nD) :
    (dat4 V c).arrAt 3 cfg4.N = affine (n := 10000) (k := 256) (p := 128) (V c main_v5) (V c main_v6) (V c main_v8) :=
  (dat4 V c).arrAt_eq_of_cover 3 _ (fun t _ => flushed_eq V c t) cover

end

end Cert.KernelIdeal.Affine4

end
-- ==== Proof.Fold.lean ====
/-
  What the two result buffers hold at the last segment boundary, as functions of the arguments.

  The generated fold `Gen.W0 … Gen.W9` gives the buffer contents at each of the nine segment boundaries. Walking it
  forward: a host stretch only reshapes a bias to one row, or concatenates the two heads' weights and biases; each
  pipelined region leaves in its output array the layer (sibling modules) of the arrays it finds at its entry; and
  every array a region finds is either an argument nothing has written yet or an earlier region's output. So the
  regions' outputs are, in order, P₁, H₁, P₂, H₂ of the specification, then the joint head layer, whose two column
  cuts are the two heads.
-/
import proofs.«168686_g15908558864605_cont_sun_m_580_3_alg».proof.Proof.Gen.KernelIdeal.Frame
import proofs.«168686_g15908558864605_cont_sun_m_580_3_alg».proof.Proof.Spec
import proofs.«168686_g15908558864605_cont_sun_m_580_3_alg».proof.Proof.HostReads
import proofs.«168686_g15908558864605_cont_sun_m_580_3_alg».proof.Proof.Affine0
import proofs.«168686_g15908558864605_cont_sun_m_580_3_alg».proof.Proof.Agg1
import proofs.«168686_g15908558864605_cont_sun_m_580_3_alg».proof.Proof.Affine2
import proofs.«168686_g15908558864605_cont_sun_m_580_3_alg».proof.Proof.Agg3
import proofs.«168686_g15908558864605_cont_sun_m_580_3_alg».proof.Proof.Affine4
import Idealize.ShloMosaic.Lib.StableHlo.Run
import Idealize.ShloMosaic.Lib.Pipeline.Value

noncomputable section

namespace Cert.KernelIdeal.Fold

open Cert.KernelIdeal Cert.KernelIdeal.Gen Cert.Gcn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- An argument's launch contents on core `c`. -/
abbrev arg (b : Ref sig .tc) : Buf (Elt Ideal) ((c : Thread nD τ).loc b) := m ((c : Thread nD τ).loc b)

/-! ## Buffers a host stretch does not write -/

theorem host0_keeps (b : Ref sig .tc) (h : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem host2_keeps (b : Ref sig .tc) (h : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

theorem host4_keeps (b : Ref sig .tc) (h6 : b ≠ main_v6) (h7 : b ≠ main_v7) (h8 : b ≠ main_v8) :
    W7 m ρ c (Proc.devRef .tc b) = W6 m ρ c (Proc.devRef .tc b) :=
  StableHlo.after_of_forall_not_mem (b := Proc.devRef .tc b) _ _ (List.forall_iff_forall_mem.mp (by
    simp only [hostOps4, List.Forall, StableHlo.binary_writes, StableHlo.reshape_writes, Finset.mem_singleton]
    exact ⟨StableHlo.devRef_ne_of_ne h6, StableHlo.devRef_ne_of_ne h7, StableHlo.devRef_ne_of_ne h8⟩))

/-! ## Arguments nothing has touched yet -/

theorem keep1 (b : Ref sig .tc) (h0 : b ≠ main_v0) : W1 m ρ c (Proc.devRef .tc b) = arg m c b :=
  (host0_keeps m ρ c b h0).trans rfl

theorem keep3 (b : Ref sig .tc) (h0 : b ≠ main_v0) (s0 : ∀ w, Pipeline.arrRef spec0 w ≠ b) (s1 : ∀ w, Pipeline.arrRef spec1 w ≠ b) :
    W3 m ρ c (Proc.devRef .tc b) = arg m c b :=
  (W3_of_ne m ρ c b s1).trans ((W2_of_ne m ρ c b s0).trans (keep1 m ρ c b h0))

theorem keep6 (b : Ref sig .tc) (h0 : b ≠ main_v0) (h3 : b ≠ main_v3) (s0 : ∀ w, Pipeline.arrRef spec0 w ≠ b)
    (s1 : ∀ w, Pipeline.arrRef spec1 w ≠ b) (s2 : ∀ w, Pipeline.arrRef spec2 w ≠ b) (s3 : ∀ w, Pipeline.arrRef spec3 w ≠ b) :
    W6 m ρ c (Proc.devRef .tc b) = arg m c b :=
  (W6_of_ne m ρ c b s3).trans ((W5_of_ne m ρ c b s2).trans ((host2_keeps m ρ c b h3).trans (keep3 m ρ c b h0 s0 s1)))

/-! ## The adjacency: an argument two regions read through an input window, and none writes -/

theorem adjacency2 : V2 m ρ c main_arg0 = arg m c main_arg0 :=
  (W2_of_ne m ρ c main_arg0 (by decide)).trans (keep1 m ρ c main_arg0 (by decide))

theorem adjacency3 : W3 m ρ c (Proc.devRef .tc main_arg0) = arg m c main_arg0 :=
  (W3_arr m ρ c 0).trans (((dat1 (V2 m ρ) c).arrAt_in 0 rfl _).trans ((A_eq1 (V2 m ρ) c 0).trans (adjacency2 m ρ c)))

theorem adjacency5 : V5 m ρ c main_arg0 = arg m c main_arg0 :=
  (W5_of_ne m ρ c main_arg0 (by decide)).trans ((host2_keeps m ρ c main_arg0 (by decide)).trans (adjacency3 m ρ c))

/-! ## The intermediate arrays of the specification, at the launch contents -/

/-- `P₁ = X·W₁ + b₁`. -/
def P1 : Mat 10000 256 :=
  affine (n := 10000) (k := 128) (p := 256) (arg m c main_arg1) (arg m c main_arg2) (rowMat (p := 256) (arg m c main_arg3))
/-- `H₁ = max(A·P₁, 0)`. -/
def H1 : Mat 10000 256 := aggregate (n := 10000) (k := 10000) (p := 256) (arg m c main_arg0) (P1 m c)
/-- `P₂ = H₁·W₂ + b₂`. -/
def P2 : Mat 10000 256 :=
  affine (n := 10000) (k := 256) (p := 256) (H1 m c) (arg m c main_arg4) (rowMat (p := 256) (arg m c main_arg5))
/-- `H₂ = max(A·P₂, 0)`. -/
def H2 : Mat 10000 256 := aggregate (n := 10000) (k := 10000) (p := 256) (arg m c main_arg0) (P2 m c)

theorem H2_eq : H2 m c = hidden (arg m c main_arg0) (arg m c main_arg1) (arg m c main_arg2) (arg m c main_arg3)
    (arg m c main_arg4) (arg m c main_arg5) := rfl

/-! ## Region by region -/

/-- Region 0's bias row: the first bias reshaped to one row. -/
theorem bias1 : V1 m ρ c main_v0 = rowMat (p := 256) (arg m c main_arg3) := by
  show StableHlo.after hostOps0 (W0 m ρ c) (Proc.devRef .tc main_v0) = _
  dsimp only [hostOps0]
  after_results
  exact reshape_row (p := 256) (W0 m ρ c (Proc.devRef .tc main_arg3)) shapeCasts_S256_S1x256

/-- Region 0 leaves `P₁`. -/
theorem region0 : V2 m ρ c main_v1 = P1 m c :=
  (W2_arr m ρ c 3).trans ((Affine0.final (V1 m ρ) c).trans
    (affine_congr (keep1 m ρ c main_arg1 (by decide)) (keep1 m ρ c main_arg2 (by decide)) (bias1 m ρ c)))

/-- Region 1 leaves `H₁`. -/
theorem region1 : W3 m ρ c (Proc.devRef .tc main_v2) = H1 m c :=
  (W3_arr m ρ c 2).trans ((Agg1.final (V2 m ρ) c).trans (aggregate_congr (adjacency2 m ρ c) (region0 m ρ c)))

/-- Region 2's bias row: the second bias reshaped to one row. -/
theorem bias2 : V4 m ρ c main_v3 = rowMat (p := 256) (arg m c main_arg5) := by
  show StableHlo.after hostOps2 (W3 m ρ c) (Proc.devRef .tc main_v3) = _
  dsimp only [hostOps2]
  after_results
  refine (reshape_row (p := 256) (W3 m ρ c (Proc.devRef .tc main_arg5)) shapeCasts_S256_S1x256).trans ?_
  exact congrArg (rowMat (p := 256)) (keep3 m ρ c main_arg5 (by decide) (by decide) (by decide))

/-- Region 2 leaves `P₂`. -/
theorem region2 : V5 m ρ c main_v4 = P2 m c :=
  (W5_arr m ρ c 3).trans ((Affine2.final (V4 m ρ) c).trans
    (affine_congr ((host2_keeps m ρ c main_v2 (by decide)).trans (region1 m ρ c))
      ((host2_keeps m ρ c main_arg4 (by decide)).trans (keep3 m ρ c main_arg4 (by decide) (by decide) (by decide)))
      (bias2 m ρ c)))

/-- Region 3 leaves `H₂`. -/
theorem region3 : W6 m ρ c (Proc.devRef .tc main_v5) = H2 m c :=
  (W6_arr m ρ c 2).trans ((Agg3.final (V5 m ρ) c).trans (aggregate_congr (adjacency5 m ρ c) (region2 m ρ c)))

/-- The two heads' weights side by side, as region 4 finds them. -/
theorem joint_weights : V7 m ρ c main_v6
    = concatenate S256x128 1 [⟨S256x64, arg m c main_arg6⟩, ⟨S256x64, arg m c main_arg8⟩] concatenates_S256x64_S256x64_S256x128_d1 := by
  show StableHlo.after hostOps4 (W6 m ρ c) (Proc.devRef .tc main_v6) = _
  dsimp only [hostOps4]
  after_results
  rw [keep6 m ρ c main_arg6 (by decide) (by decide) (by decide) (by decide) (by decide) (by decide),
    keep6 m ρ c main_arg8 (by decide) (by decide) (by decide) (by decide) (by decide) (by decide)]

/-- The two heads' biases end to end, as one row, as region 4 finds them. -/
theorem joint_bias : V7 m ρ c main_v8
    = shapeCast S1x128 (concatenate S128 0 [⟨S64, arg m c main_arg7⟩, ⟨S64, arg m c main_arg9⟩] concatenates_S64_S64_S128_d0) shapeCasts_S128_S1x128 := by
  show StableHlo.after hostOps4 (W6 m ρ c) (Proc.devRef .tc main_v8) = _
  dsimp only [hostOps4]
  after_results
  rw [keep6 m ρ c main_arg7 (by decide) (by decide) (by decide) (by decide) (by decide) (by decide),
    keep6 m ρ c main_arg9 (by decide) (by decide) (by decide) (by decide) (by decide) (by decide)]
  rfl

/-- Region 4 leaves the joint head layer. -/
theorem region4 : W8 m ρ c (Proc.devRef .tc main_v9)
    = affine (n := 10000) (k := 256) (p := 128) (H2 m c)
        (concatenate S256x128 1 [⟨S256x64, arg m c main_arg6⟩, ⟨S256x64, arg m c main_arg8⟩] concatenates_S256x64_S256x64_S256x128_d1)
        (shapeCast S1x128 (concatenate S128 0 [⟨S64, arg m c main_arg7⟩, ⟨S64, arg m c main_arg9⟩] concatenates_S64_S64_S128_d0) shapeCasts_S128_S1x128) :=
  (W8_arr m ρ c 3).trans ((Affine4.final (V7 m ρ) c).trans
    (affine_congr ((host4_keeps m ρ c main_v5 (by decide) (by decide) (by decide)).trans (region3 m ρ c))
      (joint_weights m ρ c) (joint_bias m ρ c)))

/-! ## The two results -/

/-- The first result buffer ends at the head over `Wμ`, `bμ`. -/
theorem mean_result : W9 m ρ c (Proc.devRef .tc main_v10)
    = head (arg m c main_arg0) (arg m c main_arg1) (arg m c main_arg2) (arg m c main_arg3) (arg m c main_arg4) (arg m c main_arg5)
        (arg m c main_arg6) (arg m c main_arg7) := by
  have e : W9 m ρ c (Proc.devRef .tc main_v10)
      = extractStridedSlice S10000x64 ![0, 0] (W8 m ρ c (Proc.devRef .tc main_v9)) slices_S10000x128_S10000x64_0_0 := by
    show StableHlo.after hostOps5 (W8 m ρ c) (Proc.devRef .tc main_v10) = _
    dsimp only [hostOps5]
    after_results
  rw [e, region4, H2_eq]
  exact head_left _ _ _ _ _ _ _ _ _

/-- The second result buffer ends at the head over `Wσ`, `bσ`. -/
theorem logvar_result : W9 m ρ c (Proc.devRef .tc main_v11)
    = head (arg m c main_arg0) (arg m c main_arg1) (arg m c main_arg2) (arg m c main_arg3) (arg m c main_arg4) (arg m c main_arg5)
        (arg m c main_arg8) (arg m c main_arg9) := by
  have e : W9 m ρ c (Proc.devRef .tc main_v11)
      = extractStridedSlice S10000x64 ![0, 64] (W8 m ρ c (Proc.devRef .tc main_v9)) slices_S10000x128_S10000x64_0_64 := by
    show StableHlo.after hostOps5 (W8 m ρ c) (Proc.devRef .tc main_v11) = _
    dsimp only [hostOps5]
    after_results
  rw [e, region4, H2_eq]
  exact head_right _ _ _ _ _ _ _ _ _

end Cert.KernelIdeal.Fold

end
-- ==== Proof.RefSide.lean ====
/-
  The reference computes the specification.

  The reference's run ends with each result at a composed term of host operations; read one operation at a time, a
  `dot_general` followed by the add of a broadcast bias is the affine layer, and a `dot_general` against the
  adjacency followed by the maximum with the zero splat is the aggregation. Composed, the two results are the two
  heads of the encoder.
-/
import proofs.«168686_g15908558864605_cont_sun_m_580_3_alg».proof.Proof.Gen.ReferenceIdeal.Read
import proofs.«168686_g15908558864605_cont_sun_m_580_3_alg».proof.Proof.Spec
import Idealize.ShloMosaic.Lib.ValueIdx

noncomputable section

namespace Cert.ReferenceIdeal.RefValue

open Cert.ReferenceIdeal Cert.ReferenceIdeal.Read Cert.Gcn
open Idealize.ShloMosaic Idealize.ShloMosaic.ValueIdx

variable (x0 : Mat 10000 10000) (x1 : Mat 10000 128) (x2 : Mat 128 256) (x3 : Row 256) (x4 : Mat 256 256) (x5 : Row 256)
  (x6 : Mat 256 64) (x7 : Row 64) (x8 : Mat 256 64) (x9 : Row 64)

/-- The first projection `X·W₁ + b₁`. -/
theorem first_projection : val_main_v3 (F := Ideal) x1 x2 x3 = affine x1 x2 (rowMat x3) := by
  funext i
  rw [val_main_v3_apply, val_main_v0_apply, val_main_v2_apply, val_main_v1_apply]
  unfold affine rowMat
  refine congrArg₂ (· + ·) (Finset.sum_congr rfl fun k _ => ?_) ?_
  · refine congrArg₂ (· * ·) (congrArg x1 (funext fun a => ?_)) (congrArg x2 (funext fun a => ?_))
    · match a with | ⟨0, _⟩ => rfl | ⟨1, _⟩ => rfl
    · match a with | ⟨0, _⟩ => rfl | ⟨1, _⟩ => rfl
  · exact congrArg x3 (funext fun a => by match a with | ⟨0, _⟩ => rfl)

/-- The first hidden state `max(A·P₁, 0)`. -/
theorem first_hidden : val_main_v5 (F := Ideal) x0 x1 x2 x3 = aggregate x0 (val_main_v3 (F := Ideal) x1 x2 x3) := by
  funext i
  rw [val_main_v5_apply, val_main_v4_apply, val_main_call0_v0_apply, val_main_call0_cst_apply]
  unfold aggregate
  refine congrArg (max · zeroWord) (Finset.sum_congr rfl fun k _ => ?_)
  refine congrArg₂ (· * ·) (congrArg x0 (funext fun a => ?_)) (congrArg (val_main_v3 (F := Ideal) x1 x2 x3) (funext fun a => ?_))
  · match a with | ⟨0, _⟩ => rfl | ⟨1, _⟩ => rfl
  · match a with | ⟨0, _⟩ => rfl | ⟨1, _⟩ => rfl

/-- The second projection `H₁·W₂ + b₂`. -/
theorem second_projection :
    val_main_v9 (F := Ideal) x0 x1 x2 x3 x4 x5 = affine (val_main_v5 (F := Ideal) x0 x1 x2 x3) x4 (rowMat x5) := by
  funext i
  rw [val_main_v9_apply, val_main_v6_apply, val_main_v8_apply, val_main_v7_apply]
  unfold affine rowMat
  refine congrArg₂ (· + ·) (Finset.sum_congr rfl fun k _ => ?_) ?_
  · refine congrArg₂ (· * ·) (congrArg (val_main_v5 (F := Ideal) x0 x1 x2 x3) (funext fun a => ?_)) (congrArg x4 (funext fun a => ?_))
    · match a with | ⟨0, _⟩ => rfl | ⟨1, _⟩ => rfl
    · match a with | ⟨0, _⟩ => rfl | ⟨1, _⟩ => rfl
  · exact congrArg x5 (funext fun a => by match a with | ⟨0, _⟩ => rfl)

/-- The second hidden state `max(A·P₂, 0)`. -/
theorem second_hidden :
    val_main_v11 (F := Ideal) x0 x1 x2 x3 x4 x5 = aggregate x0 (val_main_v9 (F := Ideal) x0 x1 x2 x3 x4 x5) := by
  funext i
  rw [val_main_v11_apply, val_main_v10_apply, val_main_call1_v0_apply, val_main_call1_cst_apply]
  unfold aggregate
  refine congrArg (max · zeroWord) (Finset.sum_congr rfl fun k _ => ?_)
  refine congrArg₂ (· * ·) (congrArg x0 (funext fun a => ?_)) (congrArg (val_main_v9 (F := Ideal) x0 x1 x2 x3 x4 x5) (funext fun a => ?_))
  · match a with | ⟨0, _⟩ => rfl | ⟨1, _⟩ => rfl
  · match a with | ⟨0, _⟩ => rfl | ⟨1, _⟩ => rfl

/-- The reference's second hidden state is the specification's. -/
theorem hidden_eq : val_main_v11 (F := Ideal) x0 x1 x2 x3 x4 x5 = hidden x0 x1 x2 x3 x4 x5 := by
  rw [second_hidden, second_projection, first_hidden, first_projection]
  rfl

/-- The first result: the head over `Wμ`, `bμ`. -/
theorem mean_head :
    val_main_v15 (F := Ideal) x0 x1 x2 x3 x4 x5 x6 x7 = head x0 x1 x2 x3 x4 x5 x6 x7 := by
  have h : val_main_v15 (F := Ideal) x0 x1 x2 x3 x4 x5 x6 x7 = affine (val_main_v11 (F := Ideal) x0 x1 x2 x3 x4 x5) x6 (rowMat x7) := by
    funext i
    rw [val_main_v15_apply, val_main_v12_apply, val_main_v14_apply, val_main_v13_apply]
    unfold affine rowMat
    refine congrArg₂ (· + ·) (Finset.sum_congr rfl fun k _ => ?_) ?_
    · refine congrArg₂ (· * ·) (congrArg (val_main_v11 (F := Ideal) x0 x1 x2 x3 x4 x5) (funext fun a => ?_)) (congrArg x6 (funext fun a => ?_))
      · match a with | ⟨0, _⟩ => rfl | ⟨1, _⟩ => rfl
      · match a with | ⟨0, _⟩ => rfl | ⟨1, _⟩ => rfl
    · exact congrArg x7 (funext fun a => by match a with | ⟨0, _⟩ => rfl)
  rw [h, hidden_eq]
  rfl

/-- The second result: the head over `Wσ`, `bσ`. -/
theorem logvar_head :
    val_main_v19 (F := Ideal) x0 x1 x2 x3 x4 x5 x8 x9 = head x0 x1 x2 x3 x4 x5 x8 x9 := by
  have h : val_main_v19 (F := Ideal) x0 x1 x2 x3 x4 x5 x8 x9 = affine (val_main_v11 (F := Ideal) x0 x1 x2 x3 x4 x5) x8 (rowMat x9) := by
    funext i
    rw [val_main_v19_apply, val_main_v16_apply, val_main_v18_apply, val_main_v17_apply]
    unfold affine rowMat
    refine congrArg₂ (· + ·) (Finset.sum_congr rfl fun k _ => ?_) ?_
    · refine congrArg₂ (· * ·) (congrArg (val_main_v11 (F := Ideal) x0 x1 x2 x3 x4 x5) (funext fun a => ?_)) (congrArg x8 (funext fun a => ?_))
      · match a with | ⟨0, _⟩ => rfl | ⟨1, _⟩ => rfl
      · match a with | ⟨0, _⟩ => rfl | ⟨1, _⟩ => rfl
    · exact congrArg x9 (funext fun a => by match a with | ⟨0, _⟩ => rfl)
  rw [h, hidden_eq]
  rfl

end Cert.ReferenceIdeal.RefValue

end
-- ==== Proof.lean ====
/-
  The certificate of the graph-convolution encoder: a pipelined kernel program against its plain reference.

  Both compute, over the extended reals, with `A` the dense normalised adjacency and `X` the node features,
    H₁ = max(A·(X·W₁ + b₁), 0),   H₂ = max(A·(H₁·W₂ + b₂), 0),   μ = H₂·Wμ + bμ,   logσ² = H₂·Wσ + bσ
  (Proof/Spec.lean). The kernel program runs five pipelined regions — three affine layers on blocks of 2000 rows,
  two aggregations on blocks of 400 rows of the adjacency — and applies its last layer to the two heads joined along
  the columns, cutting the columns apart afterwards. Index by index every product is the same plain sum on both
  sides and a column of the joint layer meets only its own head's weights and bias, so the two programs are one
  function of the arguments: no law of arithmetic beyond that is used, and the finiteness of the inputs is never
  opened.

  The three frames are the generated ones (the reference's is its generated run with the results dropped). No
  operation of the kernel program was rewritten in idealizing it, so the program read at the extended reals is its own
  idealization and there is nothing to restate.
-/
import proofs.«168686_g15908558864605_cont_sun_m_580_3_alg».proof.Defs
import proofs.«168686_g15908558864605_cont_sun_m_580_3_alg».proof.Proof.Gen.Kernel
import proofs.«168686_g15908558864605_cont_sun_m_580_3_alg».proof.Proof.Gen.Kernel.Frame
import proofs.«168686_g15908558864605_cont_sun_m_580_3_alg».proof.Proof.Gen.KernelIdeal
import proofs.«168686_g15908558864605_cont_sun_m_580_3_alg».proof.Proof.Gen.KernelIdeal.Frame
import proofs.«168686_g15908558864605_cont_sun_m_580_3_alg».proof.Proof.Gen.ReferenceIdeal
import proofs.«168686_g15908558864605_cont_sun_m_580_3_alg».proof.Proof.Gen.Pre_finite_inputs
import proofs.«168686_g15908558864605_cont_sun_m_580_3_alg».proof.Proof.Gen.ReferenceIdeal.Run
import proofs.«168686_g15908558864605_cont_sun_m_580_3_alg».proof.Proof.Gen.ReferenceIdeal.Read
import proofs.«168686_g15908558864605_cont_sun_m_580_3_alg».proof.Proof.Spec
import proofs.«168686_g15908558864605_cont_sun_m_580_3_alg».proof.Proof.KernelRun
import proofs.«168686_g15908558864605_cont_sun_m_580_3_alg».proof.Proof.Fold
import proofs.«168686_g15908558864605_cont_sun_m_580_3_alg».proof.Proof.RefSide
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel program's run: the two results at the two heads of the launch arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10)
          = head (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_v11)
          = head (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun r h c => ⟨(h c).1.trans (Cert.KernelIdeal.Fold.mean_result m ρ c),
      (h c).2.1.trans (Cert.KernelIdeal.Fold.logvar_result m ρ c), (h c).2.2⟩)
    (Cert.KernelIdeal.Results.run (F := Ideal) m ρ)

/-- No operation was rewritten in idealizing the kernel program: there is nothing to restate. -/
theorem preserves : Cert.preserves_Kernel_KernelIdeal := trivial

/-- From memories agreeing on the arguments both programs end with the two heads of those arguments. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_v15_eq _ _ _ _ _ _ _ _).trans
      ((Cert.ReferenceIdeal.RefValue.mean_head _ _ _ _ _ _ _ _).trans ?_))
    rw [(hagree c).1, (hagree c).2.1, (hagree c).2.2.1, (hagree c).2.2.2.1, (hagree c).2.2.2.2.1, (hagree c).2.2.2.2.2.1, (hagree c).2.2.2.2.2.2.1, (hagree c).2.2.2.2.2.2.2.1]
  · refine (h c).2.1.trans ((Cert.ReferenceIdeal.Read.val_main_v19_eq _ _ _ _ _ _ _ _).trans
      ((Cert.ReferenceIdeal.RefValue.logvar_head _ _ _ _ _ _ _ _).trans ?_))
    rw [(hagree c).1, (hagree c).2.1, (hagree c).2.2.1, (hagree c).2.2.2.1, (hagree c).2.2.2.2.1, (hagree c).2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
